-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x1024 .f32) (main_arg1 : FVec F S8x2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  main_v8
-- ==== Kernel.lean ====
abbrev S8x2048x1024 : Shape := ⟨3, ![8, 2048, 1024]⟩
abbrev S8x2048x2048 : Shape := ⟨3, ![8, 2048, 2048]⟩
abbrev S1x2048x1024 : Shape := ⟨3, ![1, 2048, 1024]⟩
abbrev S1x512x1024 : Shape := ⟨3, ![1, 512, 1024]⟩
abbrev S1x2048x512 : Shape := ⟨3, ![1, 2048, 512]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2048, .f32⟩
  | .local _ .vmem, ⟨0, _⟩ => ⟨S1x2048x1024, .f32⟩
  | .local _ .vmem, ⟨1, _⟩ => ⟨S1x2048x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x2048x512, .f32⟩
  | .local _ .vmem, ⟨5, _⟩ => ⟨S1x2048x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  dot_S2048x1024_S512x1024_S2048x512_1_1_0_0_n_n_wf : DotDims.WF S2048x1024 S512x1024 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x2048x1024.size a
  hwx0_1 : ∀ i : grid0.Coords, EltTy.bits .f32 = 32 ∨ (Rect.block (s := S8x2048x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x2048.size a
  hwx0_2 : ∀ i : grid0.Coords, EltTy.bits .f32 = 32 ∨ (Rect.block (s := S8x2048x2048) S1x2048x512.size (cc0_transform_2 i) (hinb0_2 i)).WholeWords (EltTy.packing .f32)

variable [Facts₀]

def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x2048x2048 : Shape := ⟨3, ![8, 2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x2048x1024_S8x2048x1024_S8x2048x2048_2_2_1_1_0_0_wf : DotDims.WF S8x2048x1024 S8x2048x1024 S8x2048x2048 [2] [2] [1] [1] [0] [0]

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf

class Facts : Prop extends Facts₀ where

variable [Facts]
-- ==== Proof.BatchedProduct.lean ====
/-
  The function both programs compute, read over the extended reals.

  For two arrays A and B of shape [8, 2048, 1024] (8 batches of 2048 rows, each row of length 1024) the result is the
  array of shape [8, 2048, 2048] whose entry (b, n, m) is the inner product of row n of batch b of A with row m of
  batch b of B:

      out[b, n, m] = Σ_{e < 1024} A[b, n, e] · B[b, m, e].

  That is the batched product A · Bᵀ, one 2048 × 2048 matrix of inner products per batch. The sum is a finite sum
  in the extended reals, whose addition and multiplication are commutative and associative everywhere, so the sum
  does not depend on the order of its terms; nothing below needs the entries to be finite.
-/
import Idealize.ShloMosaic.PureOps.Ideal
import Idealize.ShloMosaic.Lib.ValueIdx

noncomputable section

open Idealize.ShloMosaic Idealize.ShloMosaic.ValueIdx

namespace Cert.BatchedProduct

/-- The shape of each operand: 8 batches of 2048 rows of length 1024. -/
abbrev Operand : Shape := ⟨3, ![8, 2048, 1024]⟩
/-- The shape of the result: per batch, a 2048 × 2048 matrix of inner products. -/
abbrev Result : Shape := ⟨3, ![8, 2048, 2048]⟩

/-- Entry (b, n, m) of the result: the inner product over the last axis of row n of A's batch b and row m of B's
    batch b. -/
def rowProducts (A B : Operand.Idx → EReal) : Result.Idx → EReal :=
  fun i => ∑ e : Fin 1024, A (ix3 (i 0 : Fin 8) (i 1 : Fin 2048) e) * B (ix3 (i 0 : Fin 8) (i 2 : Fin 2048) e)

/-- The same, at an index given by its three coordinates. -/
theorem rowProducts_apply (A B : Operand.Idx → EReal) (b : Fin 8) (n m : Fin 2048) :
    rowProducts A B (ix3 b n m) = ∑ e : Fin 1024, A (ix3 b n e) * B (ix3 b m e) := rfl

end Cert.BatchedProduct

end
-- ==== Proof.ReferenceProduct.lean ====
/-
  The reference computes the batched product of rows.

  The reference is one host contraction of its two arguments: batch axis 0 of each operand paired, axis 2 of each
  contracted, so its entry (b, n, m) is Σ_e x0[b, n, e] · x1[b, m, e]. Read at an index, that sum is term by term
  the specification's sum: the left factor sits at (b, n, e), the right factor at (b, m, e).
-/
import proofs.«153292_j41841571398230_2_alg».proof.Proof.Gen.ReferenceIdeal.Read
import proofs.«153292_j41841571398230_2_alg».proof.Proof.BatchedProduct

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-- The left factor of the contraction's term e at result index i sits at (i₀, i₁, e). -/
theorem left_at (i : S8x2048x2048.Idx) (e : Fin 1024) :
    lidx_main_v0 i e = ix3 (i 0 : Fin 8) (i 1 : Fin 2048) e :=
  funext fun a => by match a with | ⟨0, _⟩ => rfl | ⟨1, _⟩ => rfl | ⟨2, _⟩ => rfl

/-- The right factor of the contraction's term e at result index i sits at (i₀, i₂, e). -/
theorem right_at (i : S8x2048x2048.Idx) (e : Fin 1024) :
    ridx_main_v0 i e = ix3 (i 0 : Fin 8) (i 2 : Fin 2048) e :=
  funext fun a => by match a with | ⟨0, _⟩ => rfl | ⟨1, _⟩ => rfl | ⟨2, _⟩ => rfl

/-- The reference's result, as a function of its two arguments, is the batched product of rows. -/
theorem result_eq (x0 x1 : FVec Ideal S8x2048x1024 .f32) :
    Host.dotGeneral (F := Ideal) dot_S8x2048x1024_S8x2048x1024_S8x2048x2048_2_2_1_1_0_0 none x0 x1
      = Cert.BatchedProduct.rowProducts x0 x1 := by
  show val_main_v0 (F := Ideal) x0 x1 = _
  funext i
  rw [val_main_v0_apply]
  show (∑ e : Fin 1024, _) = ∑ e : Fin 1024, _
  refine Finset.sum_congr rfl fun e _ => ?_
  rw [left_at i e, right_at i e]
  rfl

end Cert.ReferenceIdeal.RefValue

end
-- ==== Proof.TileProduct.lean ====
/-
  One tile of the kernel, read at an index.

  At a grid point the kernel body holds a block x0 of shape [1, 2048, 1024] (all rows of one batch of the first
  argument) and a block x1 of shape [1, 512, 1024] (512 rows of the same batch of the second argument). It drops the
  leading unit axis of each, narrows both to a shorter float format (the identity on extended reals), contracts the
  last axis of each into a zero accumulator, and puts the unit axis back. So entry (0, p, q) of what it stores is

      Σ_{e < 1024} x0[0, p, e] · x1[0, q, e],

  the zero accumulator contributing nothing to the sum.
-/
import proofs.«153292_j41841571398230_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.Tile

open Cert.KernelIdeal Cert.KernelIdeal.Gen

/-- The tile's contraction: [2048, 1024] against [512, 1024] over the last axis of each, into [2048, 512]. -/
abbrev tileDot : DotDims S2048x1024 S512x1024 S2048x512 := dot_S2048x1024_S512x1024_S2048x512_1_1_0_0_n_n

/-- The left operand's row is the result's row. -/
theorem left_row (j : S2048x512.Idx) (k : tileDot.contr.Idx) : (tileDot.lhsIdx j k 0).val = (j 0).val := by
  unfold DotDims.lhsIdx
  rw [dif_neg (show ¬(0 : Fin S2048x1024.rank) ∈ tileDot.lhsBatch by decide),
    dif_pos (show (0 : Fin S2048x1024.rank) ∈ tileDot.lhsNonContracting by decide)]
  rfl

/-- The left operand's column is the contraction position. -/
theorem left_col (j : S2048x512.Idx) (k : tileDot.contr.Idx) : (tileDot.lhsIdx j k 1).val = (k ⟨0, by decide⟩).val :=
  tileDot.lhsIdx_val_of_single rfl j k

/-- The right operand's row is the result's column. -/
theorem right_row (j : S2048x512.Idx) (k : tileDot.contr.Idx) : (tileDot.rhsIdx j k 0).val = (j 1).val := by
  unfold DotDims.rhsIdx
  rw [dif_neg (show ¬(0 : Fin S512x1024.rank) ∈ tileDot.rhsBatch by decide),
    dif_pos (show (0 : Fin S512x1024.rank) ∈ tileDot.rhsNonContracting by decide)]
  rfl

/-- The right operand's column is the contraction position. -/
theorem right_col (j : S2048x512.Idx) (k : tileDot.contr.Idx) : (tileDot.rhsIdx j k 1).val = (k ⟨0, by decide⟩).val :=
  tileDot.rhsIdx_val_of_single rfl j k

/-- The contraction of two matrices over their last axes into a zero accumulator, at entry (p, q): the inner
    product of row p of the left with row q of the right. -/
theorem contract_apply (a : FVec Ideal S2048x1024 .bf16) (b : FVec Ideal S512x1024 .bf16) (p : Fin 2048) (q : Fin 512) :
    matmul tileDot none a b (constant (F := Ideal) S2048x512 .f32 0x00000000#32) (ix2 p q)
      = ∑ e : Fin 1024, a (ix2 p e) * b (ix2 q e) := by
  refine (Ideal.matmul_constant_zero_apply tileDot none a b (ix2 p q)).trans ?_
  rw [← Equiv.sum_comp (contrEquiv1 tileDot 1024 rfl rfl).symm]
  refine Finset.sum_congr rfl fun e _ => ?_
  have he := contrEquiv1_symm_val tileDot 1024 rfl rfl e
  have el : tileDot.lhsIdx (ix2 p q) ((contrEquiv1 tileDot 1024 rfl rfl).symm e) = ix2 p e :=
    funext fun x => Fin.ext (by
      match x with
      | ⟨0, _⟩ => exact left_row _ _
      | ⟨1, _⟩ => exact (left_col _ _).trans he)
  have er : tileDot.rhsIdx (ix2 p q) ((contrEquiv1 tileDot 1024 rfl rfl).symm e) = ix2 q e :=
    funext fun x => Fin.ext (by
      match x with
      | ⟨0, _⟩ => exact right_row _ _
      | ⟨1, _⟩ => exact (right_col _ _).trans he)
  rw [el, er]

/-- What the body stores, at entry (u, p, q) of its [1, 2048, 512] block: the inner product of row p of the first
    block with row q of the second. -/
theorem stored_apply (x0 : Vec Ideal S1x2048x1024 .f32) (x1 : Vec Ideal S1x512x1024 .f32)
    (u : Fin 1) (p : Fin 2048) (q : Fin 512) :
    k0_pay1 (F := Ideal) x0 x1 (ix3 u p q)
      = ∑ e : Fin 1024, x0 (ix3 (0 : Fin 1) p e) * x1 (ix3 (0 : Fin 1) q e) := by
  unfold k0_pay1
  refine (shapeCast_ab_1ab_apply _ _ u p q).trans ?_
  refine (contract_apply _ _ p q).trans ?_
  refine Finset.sum_congr rfl fun e _ => ?_
  show shapeCast S2048x1024 x0 shapeCasts_S1x2048x1024_S2048x1024 (ix2 p e)
      * shapeCast S512x1024 x1 shapeCasts_S1x512x1024_S512x1024 (ix2 q e) = _
  rw [shapeCast_1ab_ab_apply, shapeCast_1ab_ab_apply]

end Cert.KernelIdeal.Tile

end
-- ==== Proof.WholeProduct.lean ====
/-
  From tiles to the whole result array.

  The kernel runs on a grid of 8 × 4 points (bt, mt): a batch and a group of 512 consecutive rows of the second
  argument. At the point (bt, mt) it reads batch bt of the first argument whole (block index (bt, 0, 0), block
  [1, 2048, 1024]) and rows 512·mt … 512·mt + 511 of batch bt of the second argument (block index (bt, mt, 0), block
  [1, 512, 1024]), and writes the block of the result with index (bt, 0, mt) and shape [1, 2048, 512]: all 2048 rows
  of batch bt, columns 512·mt … 512·mt + 511.

  Entry (0, p, q) of what that point writes is the inner product of row p of its first block with row q of its
  second block, that is Σ_e A[bt, p, e] · B[bt, 512·mt + q, e]: entry (bt, p, 512·mt + q) of the batched product of
  rows. So every point writes back the restriction of ONE function of the two arguments to its block, and the
  32 blocks tile the result array (column m of batch b lies in the block of the point (b, m / 512)); hence the
  array ends holding that function everywhere.
-/
import proofs.«153292_j41841571398230_2_alg».proof.Proof.Gen.KernelIdeal.Value
import proofs.«153292_j41841571398230_2_alg».proof.Proof.BatchedProduct
import proofs.«153292_j41841571398230_2_alg».proof.Proof.TileProduct

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value

variable (m : (ℓ : Loc nD τ sig) → Buf (Elt Ideal) ℓ) (ρ : Dev nD → PrngReg)

/-- The body reads and writes each staged block from its origin. -/
theorem origin : (![0, 0, 0] : Fin 3 → Nat) = fun _ => 0 := funext fun a => by fin_cases a <;> rfl

/-- The block indices at a grid point, decided over the 32 points: the first argument's block is the whole batch
    the result's block lies in; the second argument's block is that batch's row group numbered like the result's
    column group; the result's block spans all rows; batches are below 8 and column groups below 4. -/
theorem block_indices : ∀ t : Fin cfg0.N,
    win0_0.index t (0 : Fin 3) = win0_2.index t (0 : Fin 3)
    ∧ win0_0.index t (1 : Fin 3) = 0
    ∧ win0_0.index t (2 : Fin 3) = 0
    ∧ win0_1.index t (0 : Fin 3) = win0_2.index t (0 : Fin 3)
    ∧ win0_1.index t (1 : Fin 3) = win0_2.index t (2 : Fin 3)
    ∧ win0_1.index t (2 : Fin 3) = 0
    ∧ win0_2.index t (1 : Fin 3) = 0
    ∧ win0_2.index t (0 : Fin 3) ≤ 7
    ∧ win0_2.index t (2 : Fin 3) ≤ 3 :=
  (by decide +kernel : ∀ t : Fin grid0.N, _)

/-- Every pair of a batch and a column group is some grid point's result block. -/
theorem every_block : ∀ (b : Fin 8) (g : Fin 4), ∃ t : Fin cfg0.N, win0_2.index t = ![b.val, 0, g.val] :=
  (by decide +kernel : ∀ (b : Fin 8) (g : Fin 4), ∃ t : Fin grid0.N, win0_2.index t = ![b.val, 0, g.val])

/-- An entry of the first argument's block at a point is the argument's entry at block index × block size plus
    the coordinate inside the block, axis by axis. -/
theorem first_block_apply (c : Dev nD) (t : Fin cfg0.N) (x : S1x2048x1024.Idx) (k : S8x2048x1024.Idx)
    (h0 : win0_0.index t (0 : Fin 3) * 1 + 1 * (x 0).val = (k 0).val)
    (h1 : win0_0.index t (1 : Fin 3) * 2048 + 1 * (x 1).val = (k 1).val)
    (h2 : win0_0.index t (2 : Fin 3) * 1024 + 1 * (x 2).val = (k 2).val) :
    (iblk m c 0 t : Vec Ideal S1x2048x1024 .f32) x
      = (m ((c : Thread nD τ).loc main_arg0) : S8x2048x1024.Idx → Elt Ideal .f32) k := by
  unfold iblk
  rw [View.read_apply]
  show V m c main_arg0 _ = m (c.tc.loc main_arg0) _
  unfold V
  congr 1
  funext a
  apply Fin.ext
  match a with
  | ⟨0, _⟩ => exact h0
  | ⟨1, _⟩ => exact h1
  | ⟨2, _⟩ => exact h2

/-- The same for the second argument's block. -/
theorem second_block_apply (c : Dev nD) (t : Fin cfg0.N) (x : S1x512x1024.Idx) (k : S8x2048x1024.Idx)
    (h0 : win0_1.index t (0 : Fin 3) * 1 + 1 * (x 0).val = (k 0).val)
    (h1 : win0_1.index t (1 : Fin 3) * 512 + 1 * (x 1).val = (k 1).val)
    (h2 : win0_1.index t (2 : Fin 3) * 1024 + 1 * (x 2).val = (k 2).val) :
    (iblk m c 1 t : Vec Ideal S1x512x1024 .f32) x
      = (m ((c : Thread nD τ).loc main_arg1) : S8x2048x1024.Idx → Elt Ideal .f32) k := by
  unfold iblk
  rw [View.read_apply]
  show V m c main_arg1 _ = m (c.tc.loc main_arg1) _
  unfold V
  congr 1
  funext a
  apply Fin.ext
  match a with
  | ⟨0, _⟩ => exact h0
  | ⟨1, _⟩ => exact h1
  | ⟨2, _⟩ => exact h2

/-- What a grid point writes back is its block of the batched product of rows of the two arguments. -/
theorem flushed_eq (c : Dev nD) (t : Fin cfg0.N) :
    (dats m 0 c).flushed 2 t = ((cfg0.win 2).blk t).view.read (Elt Ideal)
      (Cert.BatchedProduct.rowProducts (m ((c : Thread nD τ).loc main_arg0)) (m ((c : Thread nD τ).loc main_arg1))) := by
  rw [flushed2]
  unfold out0_2
  rw [View.canon_unit_zero origin]
  simp only [View.ld_unit_zero (S := S1x2048x1024) origin, View.ld_unit_zero (S := S1x512x1024) origin]
  obtain ⟨e0, e1, e2, e3, e4, e5, e6, e7, e8⟩ := block_indices t
  refine funext fun (j : S1x2048x512.Idx) => ?_
  obtain ⟨u, p, q, rfl⟩ : ∃ (u : Fin 1) (p : Fin 2048) (q : Fin 512), j = ix3 u p q := ⟨j 0, j 1, j 2, eq_ix3 j⟩
  have hu : u.val = 0 := by omega
  -- the array index of entry (u, p, q) of the result's block at this point
  have i0 : win0_2.index t (0 : Fin 3) * 1 + 1 * u.val < 8 := by omega
  have i1 : win0_2.index t (1 : Fin 3) * 2048 + 1 * p.val < 2048 := by have := p.isLt; omega
  have i2 : win0_2.index t (2 : Fin 3) * 512 + 1 * q.val < 2048 := by have := q.isLt; omega
  show k0_pay1 (F := Ideal) (iblk m c 0 t) (iblk m c 1 t) (ix3 u p q)
      = Cert.BatchedProduct.rowProducts (m ((c : Thread nD τ).loc main_arg0)) (m ((c : Thread nD τ).loc main_arg1))
          (ix3 (⟨_, i0⟩ : Fin 8) (⟨_, i1⟩ : Fin 2048) (⟨_, i2⟩ : Fin 2048))
  refine (Cert.KernelIdeal.Tile.stored_apply (iblk m c 0 t) (iblk m c 1 t) u p q).trans ?_
  rw [Cert.BatchedProduct.rowProducts_apply]
  refine Finset.sum_congr rfl fun e _ => ?_
  have he := e.isLt
  have hp := p.isLt
  have hq := q.isLt
  refine congrArg₂ (· * ·) ?_ ?_
  · refine first_block_apply m c t _ _ ?_ ?_ ?_
    · show win0_0.index t (0 : Fin 3) * 1 + 1 * 0 = win0_2.index t (0 : Fin 3) * 1 + 1 * u.val; omega
    · show win0_0.index t (1 : Fin 3) * 2048 + 1 * p.val = win0_2.index t (1 : Fin 3) * 2048 + 1 * p.val; omega
    · show win0_0.index t (2 : Fin 3) * 1024 + 1 * e.val = e.val; omega
  · refine second_block_apply m c t _ _ ?_ ?_ ?_
    · show win0_1.index t (0 : Fin 3) * 1 + 1 * 0 = win0_2.index t (0 : Fin 3) * 1 + 1 * u.val; omega
    · show win0_1.index t (1 : Fin 3) * 512 + 1 * q.val = win0_2.index t (2 : Fin 3) * 512 + 1 * q.val; omega
    · show win0_1.index t (2 : Fin 3) * 1024 + 1 * e.val = e.val; omega

/-- An index of the result array lies in a point's block iff each coordinate lies in the block's range on its
    axis. -/
theorem mem_block (t : Fin cfg0.N) (i : S8x2048x2048.Idx) :
    i ∈ ((cfg0.win 2).blk t).view.set ↔ ∀ a : Fin 3, win0_2.index t a * S1x2048x512.size a ≤ (i a).val
      ∧ (i a).val < win0_2.index t a * S1x2048x512.size a + S1x2048x512.size a := by
  show i ∈ ((View.whole main_v0).slice (win0_2.rect t)).set ↔ _
  rw [View.set_slice_whole, Rect.mem_set_unit]
  exact Iff.rfl

/-- The blocks tile the result array: entry (b, n, mcol) lies in the block of the point with batch b and column
    group mcol / 512. -/
theorem covered (i : S8x2048x2048.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 2048 := (i 2).isLt
  obtain ⟨t, ht⟩ := every_block ⟨(i 0).val, hi0⟩ ⟨(i 2).val / 512, by omega⟩
  have q0 : win0_2.index t (0 : Fin 3) = (i 0).val := congrFun ht 0
  have q1 : win0_2.index t (1 : Fin 3) = 0 := congrFun ht 1
  have q2 : win0_2.index t (2 : Fin 3) = (i 2).val / 512 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 512 ≤ (i 2).val ∧ (i 2).val < win0_2.index t (2 : Fin 3) * 512 + 512; omega

/-- The result array after the run is the batched product of rows of the two arguments. -/
theorem final (c : Dev nD) : (dats m 0 c).arrAt 2 cfg0.N
    = Cert.BatchedProduct.rowProducts (m ((c : Thread nD τ).loc main_arg0)) (m ((c : Thread nD τ).loc main_arg1)) :=
  (dats m 0 c).arrAt_eq_of_cover 2 _ (fun t _ => flushed_eq m c t) covered

/-- The kernel's run, read: every weakly fair execution terminates with the result array at the batched product of
    rows of the two arguments, and the arguments unchanged. -/
theorem run : θ_run defs (onTc (τ := τ) (main (F := Ideal))) ⟨m, fun _ => 0, ρ⟩ fun r => ∀ c : Dev nD,
      r.2.mem ((c : Thread nD τ).loc main_v0)
        = Cert.BatchedProduct.rowProducts (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.lean ====
/-
  The kernel computes the batched product of rows, and so does the reference.

  For two arrays A and B of shape [8, 2048, 1024] both programs end with the array of shape [8, 2048, 2048] whose
  entry (b, n, m) is the inner product Σ_{e < 1024} A[b, n, e] · B[b, m, e], read over the extended reals
  (Proof/BatchedProduct.lean).

  The kernel works tile by tile on a grid of 8 batches × 4 column groups: at a point it contracts the 2048 rows of
  one batch of A with 512 rows of the same batch of B into a zero accumulator (Proof/TileProduct.lean: one stored
  entry is one inner product; narrowing the operands to a shorter float format is the identity on extended reals),
  and the 32 tiles it writes back are the restrictions of that one function to blocks that tile the result array
  (Proof/WholeProduct.lean). The reference is a single contraction of the whole arrays over their last axes with the
  batch axes paired, which read at an index is the same sum term by term (Proof/ReferenceProduct.lean).

  Both sides are therefore literally the same finite sum of the same products; no rearrangement of terms and no
  cancellation is used, so finiteness of the inputs is not needed for the equality. Each program's run also leaves
  its two arguments unchanged, which gives the three frame claims; the idealized kernel is the kernel's own text
  read over the extended reals, with no operation rewritten, so there is nothing to preserve beyond that.
-/
import proofs.«153292_j41841571398230_2_alg».proof.Defs
import proofs.«153292_j41841571398230_2_alg».proof.Proof.Gen.Kernel
import proofs.«153292_j41841571398230_2_alg».proof.Proof.Gen.Kernel.Skeleton
import proofs.«153292_j41841571398230_2_alg».proof.Proof.Gen.Kernel.Launch
import proofs.«153292_j41841571398230_2_alg».proof.Proof.Gen.Kernel.Points
import proofs.«153292_j41841571398230_2_alg».proof.Proof.Gen.Kernel.Frame
import proofs.«153292_j41841571398230_2_alg».proof.Proof.Gen.KernelIdeal
import proofs.«153292_j41841571398230_2_alg».proof.Proof.Gen.KernelIdeal.Skeleton
import proofs.«153292_j41841571398230_2_alg».proof.Proof.Gen.KernelIdeal.Launch
import proofs.«153292_j41841571398230_2_alg».proof.Proof.Gen.KernelIdeal.Points
import proofs.«153292_j41841571398230_2_alg».proof.Proof.Gen.KernelIdeal.Frame
import proofs.«153292_j41841571398230_2_alg».proof.Proof.Gen.ReferenceIdeal
import proofs.«153292_j41841571398230_2_alg».proof.Proof.Gen.Pre_finite_inputs
import proofs.«153292_j41841571398230_2_alg».proof.Proof.Gen.KernelIdeal.Value
import proofs.«153292_j41841571398230_2_alg».proof.Proof.Gen.ReferenceIdeal.Run
import proofs.«153292_j41841571398230_2_alg».proof.Proof.Gen.ReferenceIdeal.Read
import proofs.«153292_j41841571398230_2_alg».proof.Proof.BatchedProduct
import proofs.«153292_j41841571398230_2_alg».proof.Proof.ReferenceProduct
import proofs.«153292_j41841571398230_2_alg».proof.Proof.TileProduct
import proofs.«153292_j41841571398230_2_alg».proof.Proof.WholeProduct
import Idealize.ShloMosaic.Adequacy
import Idealize.ShloMosaic.Init

noncomputable section

namespace Cert.Proof

open Idealize.ShloMosaic Idealize.ShloMosaic.TcCoe Idealize.SL.Sem

/-- The kernel as printed runs to the end without a fault and leaves its two arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories that agree on the two arguments, both programs end with the batched product of rows of those
    arguments in the result array: the kernel tile by tile, the reference in one contraction. -/
theorem algebraic : Cert.algebraic_KernelIdeal_ReferenceIdeal := by
  intro m ρ m' ρ' _ hagree
  refine ⟨fun c => Cert.BatchedProduct.rowProducts
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
